-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S1000000 : Shape := ⟨1, ![1000000]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S1000000 : S_.BroadcastsInDim S1000000 (![] : Fin 0 → Fin S1000000.rank)
  reducesTo_S1000000_S_d0 : S1000000.ReducesTo [0] S_

variable [Facts]

def fn {F : FTy → Type} [FloatOps F] (main_arg0 : FVec F S1000000x128 .f32) (main_arg1 : FVec F S1000000x128 .f32) (main_arg2 : FVec F S1000000 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S1000000x128 .f32 := Host.absf main_arg1
  let main_cst_0 : FVec F S_ .f32 := constant S_ .f32 0x7F800000#32
  let main_v5 : FVec F S1000000x128 .f32 := broadcastInDim S1000000x128 ![] bcast_S_S1000000x128 main_cst_0
  let main_v6 : IVec S1000000x128 1 := cmpf .olt main_v4 main_v5
  let main_c_1 : IVec S_ 1 := constantI S_ 1 1#1
  let main_v7 : IVec S_ 1 := (fun x v => Host.reduce IntOp.andi x v reducesTo_S1000000x128_S_d0_1 h_S_) main_v6 main_c_1
  let main_v8 : IVec S_ 1 := andi main_v3 main_v7
  let main_v9 : FVec F S1000000 .f32 := Host.absf main_arg2
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  main_v13
-- ==== Kernel.lean ====
abbrev S1000000x128 : Shape := ⟨2, ![1000000, 128]⟩
abbrev S1000000 : Shape := ⟨1, ![1000000]⟩
abbrev S1000000x1 : Shape := ⟨2, ![1000000, 1]⟩
abbrev S16x1 : Shape := ⟨2, ![16, 1]⟩
abbrev S5000x128 : Shape := ⟨2, ![5000, 128]⟩
abbrev S5000x1 : Shape := ⟨2, ![5000, 1]⟩
abbrev S8x1 : Shape := ⟨2, ![8, 1]⟩
abbrev S1x1 : Shape := ⟨2, ![1, 1]⟩
abbrev S128x1 : Shape := ⟨2, ![128, 1]⟩
abbrev S1 : Shape := ⟨1, ![1]⟩
abbrev S_ : Shape := ⟨0, ![]⟩

abbrev nBuf : Space → Nat
  | .hbm => 9
  | .vmem => 9
  | .smem => 0
  | _ => 0

abbrev bufTy : (tb : Table) → Fin (tcTables nBuf tb) → BufTy
  | .hbm, ⟨0, _⟩ => ⟨S1000000x128, .f32⟩
  | .hbm, ⟨1, _⟩ => ⟨S1000000x128, .f32⟩
  | .hbm, ⟨2, _⟩ => ⟨S1000000, .f32⟩
  | .hbm, ⟨3, _⟩ => ⟨S1000000x1, .f32⟩
  | .hbm, ⟨4, _⟩ => ⟨S16x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S8x1, .f32⟩
  | .local _ .vmem, ⟨7, _⟩ => ⟨S8x1, .f32⟩
  | .local _ .vmem, ⟨8, _⟩ => ⟨S1x1, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 100], ![false, false]⟩

def k0_cond2 (i : grid0.Coords) : BitVec 1 :=
  let arg1 : BitVec 32 := BitVec.ofNat 32 (i 1).val
  let c99_i32 : BitVec 32 := 99#32
  let v42 : BitVec 1 := Scalar.cmpi .eq arg1 c99_i32
  let v43 : BitVec 32 := Scalar.extui v42
  let c0_i32_17 : BitVec 32 := 0#32
  let v44 : BitVec 1 := Scalar.cmpi .ne v43 c0_i32_17
  v44

def cc0_transform_0 (i : grid0.Coords) : Fin 2 → Nat :=
  let arg0 : BitVec 32 := BitVec.ofNat 32 (i 0).val
  let arg1 : BitVec 32 := BitVec.ofNat 32 (i 1).val
  let c100_i32 : BitVec 32 := 100#32
  let v0 : BitVec 32 := Scalar.muli arg0 c100_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c100_i32 : BitVec 32 := 100#32
  let v0 : BitVec 32 := Scalar.muli arg0 c100_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c100_i32 : BitVec 32 := 100#32
  let v0 : BitVec 32 := Scalar.muli arg0 c100_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S1000000_S1000000x1 : S1000000.ShapeCasts S1000000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  natLt_1_32 : 1 < 32
  iota_S5000x1_d0_w32 : S5000x1.Iotas .tc 32 [0]
  reduces_S5000x1_S1 : S5000x1.Reduces [0] S1
  shapeCasts_S1_S1x1 : S1.ShapeCasts S1x1
  iota_S8x1_d0_w32 : S8x1.Iotas .tc 32 [0]
  broadcasts_S1x1_S8x1 : S1x1.Broadcasts S8x1
  inb_S8x1_S8x1_0_0 : ∀ a, (![0, 0] : Fin 2 → Nat) a + S8x1.size a ≤ S8x1.size a
  h_S8x1 : 0 < S8x1.numel
  reducesTo_S16x1_S_d0_1 : S16x1.ReducesTo [0, 1] S_
  h_S_ : 0 < S_.numel
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S1000000x128.size a
  hwx0_0 : ∀ i : grid0.Coords, EltTy.bits .f32 = 32 ∨ (Rect.block (s := S1000000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S1000000x128.size a
  hwx0_1 : ∀ i : grid0.Coords, EltTy.bits .f32 = 32 ∨ (Rect.block (s := S1000000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S1000000x1.size a
  hwx0_2 : ∀ i : grid0.Coords, EltTy.bits .f32 = 32 ∨ (Rect.block (s := S1000000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1.size a ≤ S16x1.size a
  hwx0_3 : ∀ i : grid0.Coords, EltTy.bits .f32 = 32 ∨ (Rect.block (s := S16x1) S8x1.size (cc0_transform_3 i) (hinb0_3 i)).WholeWords (EltTy.packing .f32)

variable [Facts₀]

def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1000000x128 : Shape := ⟨2, ![1000000, 128]⟩
abbrev S1000000 : Shape := ⟨1, ![1000000]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S1000000x128, .f32⟩
  | .hbm, ⟨2, _⟩ => ⟨S1000000, .f32⟩
  | .hbm, ⟨3, _⟩ => ⟨S1000000x128, .f32⟩
  | .hbm, ⟨4, _⟩ => ⟨S1000000x128, .f32⟩
  | .hbm, ⟨5, _⟩ => ⟨S_, .f32⟩
  | .hbm, ⟨6, _⟩ => ⟨S1000000, .f32⟩
  | .hbm, ⟨7, _⟩ => ⟨S1000000, .f32⟩
  | .hbm, ⟨8, _⟩ => ⟨S1000000, .f32⟩
  | .hbm, ⟨9, _⟩ => ⟨S_, .f32⟩
  | .hbm, ⟨10, _⟩ => ⟨S1000000, .f32⟩
  | .hbm, ⟨11, _⟩ => ⟨S1000000, .i1⟩
  | .hbm, ⟨12, _⟩ => ⟨S_, .f32⟩
  | .hbm, ⟨13, _⟩ => ⟨S1000000, .f32⟩
  | .hbm, ⟨14, _⟩ => ⟨S1000000, .f32⟩
  | .hbm, ⟨15, _⟩ => ⟨S_, .f32⟩
  | .hbm, ⟨16, _⟩ => ⟨S1000000, .f32⟩
  | .hbm, ⟨17, _⟩ => ⟨S1000000, .f32⟩
  | .hbm, ⟨18, _⟩ => ⟨S_, .f32⟩
  | .hbm, ⟨19, _⟩ => ⟨S1000000, .f32⟩
  | .hbm, ⟨20, _⟩ => ⟨S1000000, .f32⟩
  | .hbm, ⟨21, _⟩ => ⟨S_, .f32⟩
  | .hbm, ⟨22, _⟩ => ⟨S1000000, .f32⟩
  | .hbm, ⟨23, _⟩ => ⟨S1000000, .f32⟩
  | .hbm, ⟨24, _⟩ => ⟨S1000000, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_call0_cst : Ref sig .tc := ⟨.hbm, 15, rfl⟩
abbrev main_call0_v0 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_call1_cst : Ref sig .tc := ⟨.hbm, 21, rfl⟩
abbrev main_call1_v0 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩

abbrev nD : Nat := 1
abbrev τ : Topo := Topo.v7x

variable {F : FTy → Type} [FloatOps F]

class Facts₀ : Prop where
  reducesTo_S1000000x128_S1000000_d1 : S1000000x128.ReducesTo [1] S1000000
  h_S_ : 0 < S_.numel
  bcast_S_S1000000 : S_.BroadcastsInDim S1000000 (![] : Fin 0 → Fin S1000000.rank)
  reducesTo_S1000000_S_d0 : S1000000.ReducesTo [0] S_

variable [Facts₀]

class Facts : Prop extends Facts₀ where

variable [Facts]
-- ==== Proof.CasePieces.lean ====
/-
  What each control case of the body leaves behind, read back as values (at any float instance).

  The body keeps a running total in a one-element scratch that survives from one grid point to the next.
  At a point it computes the block's row-sum `s` (the payload `k0_pay4` of the three input blocks) and then
    * on the first step of a core's sweep stores a zero, reads it back, and leaves  0 + s;
    * on every other step leaves  (what the point before left) + s;
    * on the last step additionally writes the output block: the new total in row 0, zeros below
      (the payload `k0_pay2` of the total just stored).
  Each statement is one covering store's payload, its loads reading whole buffers.
-/
import proofs.«116210_j44487271252809_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

theorem hz : (![0, 0] : Fin 2 → Nat) = fun _ => 0 := funext fun a => by fin_cases a <;> rfl

/-- The total after a step: the total before it plus the block's row-sum. -/
abbrev bump (i : grid0.Coords) (x0 x1 : Vec F S5000x128 .f32) (x2 : Vec F S5000x1 .f32) (xs : Vec F S1x1 .f32) :
    Vec F S1x1 .f32 :=
  k0_pay1 (k0_pay4 i x1 x0 x2) xs

/-- A middle step leaves the previous total plus this block's row-sum in the scratch. -/
theorem scratch_B (c : Dev nD) (i : grid0.Coords) (a2 : Memref sig .tc .vmem S5000x128 .f32) (h2 : a2.IsWhole)
    (a3 : Memref sig .tc .vmem S5000x128 .f32) (h3 : a3.IsWhole) (a4 : Memref sig .tc .vmem S5000x1 .f32) (h4 : a4.IsWhole)
    (a5 : Memref sig .tc .vmem S8x1 .f32) (h5 : a5.IsWhole) (a6 : Memref sig .tc .vmem S1x1 .f32) (h6 : a6.IsWhole)
    (hc0 : ¬cond0_0 i) (hc1 : ¬cond0_1 i)
    (x0 x1 : Vec F S5000x128 .f32) (x2 : Vec F S5000x1 .f32) (xs : Vec F S1x1 .f32) :
    sout0_B_0 c i a2 h2 a3 h3 a4 h4 a5 h5 a6 h6 hc0 hc1 x0 x1 x2 xs = bump i x0 x1 x2 xs := by
  unfold sout0_B_0
  rw [View.read_writes_eq_canon _ _ _ (scover0_B_0 c i a2 h2 a3 h3 a4 h4 a5 h5 a6 h6 hc0 hc1 x0 x1 x2 xs)]
  unfold kernelRun0_B
  dsimp only
  sl_unfold_words
  rw [View.canon_unit_zero hz]
  simp only [View.readAt_eq_ld, h2.read_unread, h3.read_unread, h4.read_unread, h6.read_unread,
    View.ld_unit_zero (S := S5000x128) hz, View.ld_unit_zero (S := S5000x1) hz, View.ld_unit_zero (S := S1x1) hz]

/-- A first step stores the zero, reads it back, and leaves zero plus this block's row-sum. -/
theorem scratch_A (c : Dev nD) (i : grid0.Coords) (a2 : Memref sig .tc .vmem S5000x128 .f32) (h2 : a2.IsWhole)
    (a3 : Memref sig .tc .vmem S5000x128 .f32) (h3 : a3.IsWhole) (a4 : Memref sig .tc .vmem S5000x1 .f32) (h4 : a4.IsWhole)
    (a5 : Memref sig .tc .vmem S8x1 .f32) (h5 : a5.IsWhole) (a6 : Memref sig .tc .vmem S1x1 .f32) (h6 : a6.IsWhole)
    (hc0 : cond0_0 i) (hc1 : ¬cond0_1 i)
    (x0 x1 : Vec F S5000x128 .f32) (x2 : Vec F S5000x1 .f32) :
    sout0_A_0 c i a2 h2 a3 h3 a4 h4 a5 h5 a6 h6 hc0 hc1 x0 x1 x2 = bump i x0 x1 x2 (k0_pay3 (F := F)) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S1x1) hz, View.readCov_unit_zero (S := S1x1) _ hz]
  simp only [View.readAt_eq_ld, h2.read_unread, h3.read_unread, h4.read_unread, h6.read_unread,
    View.ld_unit_zero (S := S5000x128) hz, View.ld_unit_zero (S := S5000x1) hz, View.ld_unit_zero (S := S1x1) hz]

/-- A last step leaves the same new total in the scratch as a middle step would, -/
theorem scratch_C (c : Dev nD) (i : grid0.Coords) (a2 : Memref sig .tc .vmem S5000x128 .f32) (h2 : a2.IsWhole)
    (a3 : Memref sig .tc .vmem S5000x128 .f32) (h3 : a3.IsWhole) (a4 : Memref sig .tc .vmem S5000x1 .f32) (h4 : a4.IsWhole)
    (a5 : Memref sig .tc .vmem S8x1 .f32) (h5 : a5.IsWhole) (a6 : Memref sig .tc .vmem S1x1 .f32) (h6 : a6.IsWhole)
    (hc0 : ¬cond0_0 i) (hc1 : cond0_1 i)
    (x0 x1 : Vec F S5000x128 .f32) (x2 : Vec F S5000x1 .f32) (xs : Vec F S1x1 .f32) :
    sout0_C_0 c i a2 h2 a3 h3 a4 h4 a5 h5 a6 h6 hc0 hc1 x0 x1 x2 xs = bump i x0 x1 x2 xs := by
  unfold sout0_C_0
  rw [View.read_writes_eq_canon _ _ _ (scover0_C_0 c i a2 h2 a3 h3 a4 h4 a5 h5 a6 h6 hc0 hc1 x0 x1 x2 xs)]
  unfold kernelRun0_C
  dsimp only
  sl_unfold_words
  rw [View.canon_unit_zero hz]
  simp only [View.readAt_eq_ld, h2.read_unread, h3.read_unread, h4.read_unread, h6.read_unread,
    View.ld_unit_zero (S := S5000x128) hz, View.ld_unit_zero (S := S5000x1) hz, View.ld_unit_zero (S := S1x1) hz]

/-- and writes the output block from that new total. -/
theorem out_C (c : Dev nD) (i : grid0.Coords) (a2 : Memref sig .tc .vmem S5000x128 .f32) (h2 : a2.IsWhole)
    (a3 : Memref sig .tc .vmem S5000x128 .f32) (h3 : a3.IsWhole) (a4 : Memref sig .tc .vmem S5000x1 .f32) (h4 : a4.IsWhole)
    (a5 : Memref sig .tc .vmem S8x1 .f32) (h5 : a5.IsWhole) (a6 : Memref sig .tc .vmem S1x1 .f32) (h6 : a6.IsWhole)
    (hc0 : ¬cond0_0 i) (hc1 : cond0_1 i)
    (x0 x1 : Vec F S5000x128 .f32) (x2 : Vec F S5000x1 .f32) (xs : Vec F S1x1 .f32) :
    out0_C_3 c i a2 h2 a3 h3 a4 h4 a5 h5 a6 h6 hc0 hc1 x0 x1 x2 xs = k0_pay2 (bump i x0 x1 x2 xs) := by
  unfold out0_C_3
  rw [View.read_writes_eq_canon _ _ _ (cover0_C_3 c i a2 h2 a3 h3 a4 h4 a5 h5 a6 h6 hc0 hc1 x0 x1 x2 xs)]
  unfold kernelRun0_C
  dsimp only
  sl_unfold_words
  rw [View.canon_unit_zero hz, View.readCov_unit_zero (S := S1x1) _ hz]
  simp only [View.readAt_eq_ld, h2.read_unread, h3.read_unread, h4.read_unread, h6.read_unread,
    View.ld_unit_zero (S := S5000x128) hz, View.ld_unit_zero (S := S5000x1) hz, View.ld_unit_zero (S := S1x1) hz]

end Cert.KernelIdeal.Acc

end
-- ==== Proof.ErrTerm.lean ====
/-
  The per-row error term as mathematics on the extended reals, with no program in sight.

  A row's error is a hinge on the squashed distance t = tanh (sqrt q), where q is a sum of squares.
  Two spellings of the hinge meet here: the one that keeps both clamps at zero,
      if c then max (1 - t) 0 else max (1 + t) 0,
  and the one that drops them and folds the branch into a sign,
      1 + (1 - 2·[c]) · t          ([c] the bit read as the integer 0 or 1).
  They agree whenever 0 ≤ t ≤ 1, and t = tanh (sqrt q) is in that interval for EVERY extended real q ≥ 0
  (sqrt ⊤ = ⊤ and tanh ⊤ = 1 included), so no finiteness of the inputs is needed: a sum of squares is
  never negative on the extended reals (⊥ · ⊥ = ⊤).
-/
import Idealize.ShloMosaic.PureOps.Ideal
import Idealize.ShloMosaic.PureOps.Ideal.Laws
import Idealize.ShloMosaic.PureOps.IdealRules
import Idealize.ShloMosaic.Lib.ValueIdx

noncomputable section

namespace Cert.ErrTerm

open Idealize.ShloMosaic

/-! ## The float words the two programs spell -/

/-- The f32 word of 1.0 denotes 1. -/
theorem word_one : Ideal.ofBits .f32 0x3F800000#32 = 1 := IdealRules.sign_bit.ideal_onePat .f32

/-- The bf16 word of 1.0 denotes 1. -/
theorem word_one_bf16 : Ideal.ofBits .bf16 0x3F80#16 = 1 := IdealRules.sign_bit.ideal_onePat .bf16

/-- The f32 word of 2.0 denotes 2. -/
theorem word_two : Ideal.ofBits .f32 0x40000000#32 = ((2 : ℝ) : EReal) := by
  simp [Ideal.ofBits, Ideal.ieee, -EReal.coe_mul]; norm_num

/-! ## A sum of squares is never negative -/

/-- On the extended reals a square is never negative: ⊥ · ⊥ = ⊤ · ⊤ = ⊤. -/
theorem mul_self_nonneg (d : EReal) : 0 ≤ d * d := by
  induction d using EReal.rec with
  | bot => simp
  | top => simp
  | coe r => rw [← EReal.coe_mul]; exact_mod_cast _root_.mul_self_nonneg r

/-- So a finite sum of squares is never negative. -/
theorem sum_sq_nonneg {ι : Type*} (s : Finset ι) (d : ι → EReal) : 0 ≤ ∑ k ∈ s, d k * d k :=
  Finset.sum_nonneg fun k _ => mul_self_nonneg (d k)

/-! ## The squashed distance lies in [0, 1] -/

/-- tanh (sqrt q) of a non-negative extended real is a real number between 0 and 1. -/
theorem squash_range {q : EReal} (hq : 0 ≤ q) :
    ∃ r : ℝ, Ideal.tanh (Ideal.sqrt q) = (r : EReal) ∧ 0 ≤ r ∧ r ≤ 1 := by
  induction q using EReal.rec with
  | bot => exact absurd hq (by simp)
  | top => exact ⟨1, by simp, zero_le_one, le_refl _⟩
  | coe x =>
    have hx : 0 ≤ x := by exact_mod_cast hq
    refine ⟨Real.tanh (Real.sqrt x), ?_, ?_, (Real.tanh_lt_one _).le⟩
    · rw [Ideal.sqrt_coe, if_neg (not_lt.mpr hx), Ideal.tanh_coe]
    · rw [Real.tanh_eq_sinh_div_cosh]
      exact div_nonneg (Real.sinh_nonneg_iff.mpr (Real.sqrt_nonneg x)) (Real.cosh_pos _).le

/-! ## The two spellings of the hinge -/

/-- The hinge with both clamps: on the bit, max (1 - t) 0; off it, max (1 + t) 0. -/
def hingeClamped (c : BitVec 1) (t : EReal) : EReal :=
  Scalar.select c (max (Ideal.ofBits .f32 0x3F800000#32 - t) (Ideal.ofBits .f32 0x00000000#32))
    (max (Ideal.ofBits .f32 0x3F800000#32 + t) (Ideal.ofBits .f32 0x00000000#32))

/-- The hinge with the branch folded into a sign: 1 + (1 - 2·[c]) · t. -/
def hingeSigned (c : BitVec 1) (t : EReal) : EReal :=
  Ideal.ofBits .f32 0x3F800000#32
    + (Ideal.ofBits .f32 0x3F800000#32
        - Ideal.ofBits .f32 0x40000000#32 * ((((c.setWidth 32).toInt : ℤ) : ℝ) : EReal)) * t

/-- For t a real in [0, 1] neither clamp bites, and the sign is -1 on the bit and +1 off it. -/
theorem hinge_eq (c : BitVec 1) (t : EReal) (ht : ∃ r : ℝ, t = (r : EReal) ∧ 0 ≤ r ∧ r ≤ 1) :
    hingeSigned c t = hingeClamped c t := by
  obtain ⟨r, rfl, h0, h1⟩ := ht
  unfold hingeSigned hingeClamped
  rw [word_one, word_two, Ideal.ofBits_zero_f32]
  by_cases hc : c = 1#1
  · subst hc
    rw [ValueIdx.select_one]
    have e : (((((1#1 : BitVec 1).setWidth 32).toInt : ℤ) : ℝ) : EReal) = ((1 : ℝ) : EReal) := by
      norm_num [show ((1#1 : BitVec 1).setWidth 32).toInt = 1 from by decide]
    rw [e, ← EReal.coe_one, ← EReal.coe_mul, ← EReal.coe_sub, ← EReal.coe_mul, ← EReal.coe_add,
      ← EReal.coe_sub, ← EReal.coe_zero,
      max_eq_left (EReal.coe_le_coe_iff.mpr (by linarith : (0 : ℝ) ≤ 1 - r))]
    congr 1; ring
  · obtain rfl := ValueIdx.eq_zero_of_ne_one hc
    rw [ValueIdx.select_zero]
    have e : (((((0#1 : BitVec 1).setWidth 32).toInt : ℤ) : ℝ) : EReal) = ((0 : ℝ) : EReal) := by
      norm_num [show ((0#1 : BitVec 1).setWidth 32).toInt = 0 from by decide]
    rw [e, ← EReal.coe_one, ← EReal.coe_mul, ← EReal.coe_sub, ← EReal.coe_mul, ← EReal.coe_add,
      ← EReal.coe_add, ← EReal.coe_zero,
      max_eq_left (EReal.coe_le_coe_iff.mpr (by linarith : (0 : ℝ) ≤ 1 + r))]
    congr 1; ring

end Cert.ErrTerm

end
-- ==== Proof.LibWordArith.lean ====
/-
  32-bit words that do not wrap: what the integer operations of a printed kernel (`IntOp`, and the scalar unit's `Scalar`
  spellings of them) compute on words read as natural numbers, when the natural-number result is below 2^32 — and, for the
  arithmetic shift right, when the word is below 2^31, where it is the logical one.
-/
import Idealize.ShloMosaic.PureOps
import Idealize.ShloMosaic.Lib.Scf

namespace Cert.Lib

open Idealize.ShloMosaic

/-- A sum that does not reach 2^32 is the sum of the words read as naturals. -/
theorem toNat_addi (x y : BitVec 32) (h : x.toNat + y.toNat < 2 ^ 32) : (IntOp.addi x y).toNat = x.toNat + y.toNat := by
  show (x + y).toNat = _
  rw [BitVec.toNat_add]; exact Nat.mod_eq_of_lt h

/-- A product that does not reach 2^32 is the product of the words read as naturals. -/
theorem toNat_muli (x y : BitVec 32) (h : x.toNat * y.toNat < 2 ^ 32) : (IntOp.muli x y).toNat = x.toNat * y.toNat := by
  show (x * y).toNat = _
  rw [BitVec.toNat_mul]; exact Nat.mod_eq_of_lt h

/-- A bitwise `and` is at most its second operand (a mask bounds what it lets through). -/
theorem toNat_andi_le (x y : BitVec 32) : (IntOp.andi x y).toNat ≤ y.toNat := by
  show (x &&& y).toNat ≤ _
  rw [BitVec.toNat_and]; exact Nat.and_le_right

/-- A bitwise `and` with 2^k − 1 is the remainder modulo 2^k. -/
theorem toNat_andi_mask (x : BitVec 32) (k : Nat) (hk : k ≤ 32) : (IntOp.andi x (BitVec.ofNat 32 (2 ^ k - 1))).toNat = x.toNat % 2 ^ k := by
  show (x &&& BitVec.ofNat 32 (2 ^ k - 1)).toNat = _
  have hp : 2 ^ k ≤ 2 ^ 32 := Nat.pow_le_pow_right (by omega) hk
  have hpos : 0 < 2 ^ k := Nat.two_pow_pos k
  rw [BitVec.toNat_and, BitVec.toNat_ofNat, Nat.mod_eq_of_lt (by omega), Nat.and_two_pow_sub_one_eq_mod]

/-- A shift left by a literal below 32 is the product by the power of two, when that does not reach 2^32. -/
theorem toNat_shli (u : ArithUnit) (x : BitVec 32) (k : Nat) (hk : k < 32) (h : x.toNat * 2 ^ k < 2 ^ 32) :
    (IntOp.shli u x (BitVec.ofNat 32 k)).toNat = x.toNat * 2 ^ k := by
  have hk' : (BitVec.ofNat 32 k).toNat = k := by rw [BitVec.toNat_ofNat]; exact Nat.mod_eq_of_lt (by omega)
  rw [IntOp.shli, if_pos (by rw [hk']; exact hk), BitVec.shiftLeft_eq', BitVec.toNat_shiftLeft, hk', Nat.shiftLeft_eq]
  exact Nat.mod_eq_of_lt h

/-- The arithmetic shift right by a literal below 32 of a word below 2^31 (non-negative read signed) is the quotient by the
    power of two: there it agrees with the logical shift. -/
theorem toNat_shrsi (u : ArithUnit) (x : BitVec 32) (k : Nat) (hk : k < 32) (hx : x.toNat < 2 ^ 31) :
    (IntOp.shrsi u x (BitVec.ofNat 32 k)).toNat = x.toNat / 2 ^ k := by
  have hk' : (BitVec.ofNat 32 k).toNat = k := by rw [BitVec.toNat_ofNat]; exact Nat.mod_eq_of_lt (by omega)
  have hm : x.msb = false := by rw [BitVec.msb_eq_false_iff_two_mul_lt]; omega
  rw [IntOp.shrsi, if_pos (by rw [hk']; exact hk), BitVec.toNat_sshiftRight'_of_msb_false hm, hk', Nat.shiftRight_eq_div_pow]

/-! The scalar unit's spellings are the same operations. -/

theorem scalar_toNat_addi (x y : BitVec 32) (h : x.toNat + y.toNat < 2 ^ 32) : (Scalar.addi x y).toNat = x.toNat + y.toNat :=
  toNat_addi x y h
theorem scalar_toNat_muli (x y : BitVec 32) (h : x.toNat * y.toNat < 2 ^ 32) : (Scalar.muli x y).toNat = x.toNat * y.toNat :=
  toNat_muli x y h
theorem scalar_toNat_andi_le (x y : BitVec 32) : (Scalar.andi x y).toNat ≤ y.toNat := toNat_andi_le x y
theorem scalar_toNat_shli (x : BitVec 32) (k : Nat) (hk : k < 32) (h : x.toNat * 2 ^ k < 2 ^ 32) :
    (Scalar.shli x (BitVec.ofNat 32 k)).toNat = x.toNat * 2 ^ k := toNat_shli .scalar x k hk h
theorem scalar_toNat_shrsi (x : BitVec 32) (k : Nat) (hk : k < 32) (hx : x.toNat < 2 ^ 31) :
    (Scalar.shrsi x (BitVec.ofNat 32 k)).toNat = x.toNat / 2 ^ k := toNat_shrsi .scalar x k hk hx

/-- The induction variable of a counted loop with step one, at trip `t`, is the lower bound plus `t` while that stays below 2^32. -/
theorem toNat_iv_step_one (lb : BitVec 32) (t : Nat) (h : lb.toNat + t < 2 ^ 32) : (Scf.iv lb 1#32 t).toNat = lb.toNat + t := by
  have one : (1#32 : BitVec 32).toNat = 1 := rfl
  unfold Scf.iv
  rw [BitVec.toNat_add, BitVec.toNat_mul, BitVec.toNat_ofNat, one]
  omega

/-- The position of row `r` (below 196608 = 1536·128), lane `l` (below 16) and column `a` (below 64) in a 64 × 262144 table re-laid
    in blocks of 8 columns by 128 rows — a·128 + (a div 8)·2096128 + (r div 128)·1024 + (r mod 128) + l, as a kernel's words compute
    it with shifts and a mask — is below 16777216 = 64 · 262144, and no intermediate word wraps. -/
theorem blockedPos_lt (u : ArithUnit) (r a l : BitVec 32) (hr : r.toNat < 196608) (ha : a.toNat < 64) (hl : l.toNat < 16) :
    (IntOp.addi (IntOp.addi (IntOp.shli u a 7#32) (IntOp.muli (IntOp.shrsi u a 3#32) 2096128#32))
      (IntOp.addi (Scalar.addi (Scalar.muli (Scalar.shrsi r 7#32) 1024#32) (Scalar.andi r 127#32)) l)).toNat < 16777216 := by
  have e1 : (IntOp.shli u a 7#32).toNat = a.toNat * 2 ^ 7 := toNat_shli u a 7 (by omega) (by omega)
  have e2 : (IntOp.shrsi u a 3#32).toNat = a.toNat / 2 ^ 3 := toNat_shrsi u a 3 (by omega) (by omega)
  have e3 : (IntOp.muli (IntOp.shrsi u a 3#32) 2096128#32).toNat = a.toNat / 2 ^ 3 * 2096128 := by
    rw [toNat_muli _ _ (by rw [e2]; show _ * 2096128 < _; omega), e2]; rfl
  have e4 : (IntOp.addi (IntOp.shli u a 7#32) (IntOp.muli (IntOp.shrsi u a 3#32) 2096128#32)).toNat
      = a.toNat * 2 ^ 7 + a.toNat / 2 ^ 3 * 2096128 := by
    rw [toNat_addi _ _ (by rw [e1, e3]; omega), e1, e3]
  have e5 : (Scalar.shrsi r 7#32).toNat = r.toNat / 2 ^ 7 := toNat_shrsi .scalar r 7 (by omega) (by omega)
  have e6 : (Scalar.muli (Scalar.shrsi r 7#32) 1024#32).toNat = r.toNat / 2 ^ 7 * 1024 := by
    show (IntOp.muli _ _).toNat = _
    rw [toNat_muli _ _ (by rw [e5]; show _ * 1024 < _; omega), e5]; rfl
  have e7 : (Scalar.andi r 127#32).toNat ≤ 127 := toNat_andi_le r 127#32
  have e8 : (Scalar.addi (Scalar.muli (Scalar.shrsi r 7#32) 1024#32) (Scalar.andi r 127#32)).toNat
      = r.toNat / 2 ^ 7 * 1024 + (Scalar.andi r 127#32).toNat := by
    show (IntOp.addi _ _).toNat = _
    rw [toNat_addi _ _ (by rw [e6]; omega), e6]
  have e9 : (IntOp.addi (Scalar.addi (Scalar.muli (Scalar.shrsi r 7#32) 1024#32) (Scalar.andi r 127#32)) l).toNat
      = r.toNat / 2 ^ 7 * 1024 + (Scalar.andi r 127#32).toNat + l.toNat := by
    rw [toNat_addi _ _ (by rw [e8]; omega), e8]
  rw [toNat_addi _ _ (by rw [e4, e9]; omega), e4, e9]
  omega

end Cert.Lib
-- ==== Proof.RowSum.lean ====
/-
  The block's row-sum, read at its one index on the extended reals.

  At a grid point the body forms, for each of the block's 5000 rows, the row's error
      1 + (1 - 2·[score ≥ 0.8]) · tanh (sqrt (Σ_k (a1 - s2)_k² · 1)),
  keeps it where the row's global number is below the batch size 1000000 (always: the 200 blocks of 5000 rows
  are exactly the batch), and sums the column. This module splits the payload into the mask and the error
  column (an equation by unfolding), shows the mask is all ones, reads the error column at a row, and reads
  the column sum as a sum over the 5000 rows.
-/
import proofs.«116210_j44487271252809_2_alg».proof.Proof.Gen.KernelIdeal.Skeleton
import proofs.«116210_j44487271252809_2_alg».proof.Proof.ErrTerm
import proofs.«116210_j44487271252809_2_alg».proof.Proof.LibWordArith
import Idealize.ShloMosaic.Lib.ValueIdx
import Idealize.ShloMosaic.Lib.Pipeline.Value
import Idealize.ShloMosaic.PureOps.Ideal.Laws
import Idealize.ShloMosaic.Lib.Affine

noncomputable section

open Idealize.ShloMosaic Idealize.ShloMosaic.ValueIdx

namespace Cert.KernelIdeal.RowSum

open Cert.KernelIdeal Cert.KernelIdeal.Gen

variable {F : FTy → Type} [FloatOps F]

/-! ## The payload in two parts -/

/-- The first global row number of the block at grid point `i`: (core · 100 + step) · 5000, as the body's words compute it. -/
def blockBase (i : grid0.Coords) : BitVec 32 :=
  Scalar.muli (Scalar.addi (Scalar.muli (BitVec.ofNat 32 (i 0).val) 100#32) (BitVec.ofNat 32 (i 1).val)) 5000#32

/-- The row mask: global row number below the batch size. -/
def inBatch (i : grid0.Coords) : IVec S5000x1 1 :=
  cmpi .slt (addi (broadcast S5000x1 (blockBase i)) (iota .tc S5000x1 32 [0] iota_S5000x1_d0_w32)) (broadcast S5000x1 1000000#32)

/-- The column of squared distances, one per row: the product of the squared differences with a column of ones. -/
def sumSqCol (a1 s2 : Vec F S5000x128 .f32) : FVec F S5000x1 .f32 :=
  matmul dot_S5000x128_S128x1_S5000x1_1_0_0_1_n_n none (truncf .bf16 (mulf (subf a1 s2) (subf a1 s2)) bitsLt_bf16_f32)
    (broadcast S128x1 (Scalar.ofBits .bf16 0x3F80#16)) (constant S5000x1 .f32 0x00000000#32)

/-- The column of row errors before masking. -/
def errCol (a1 s2 : Vec F S5000x128 .f32) (sc : Vec F S5000x1 .f32) : FVec F S5000x1 .f32 :=
  addf (broadcast S5000x1 (Scalar.ofBits .f32 0x3F800000#32))
    (mulf (subf (broadcast S5000x1 (Scalar.ofBits .f32 0x3F800000#32))
        (mulf (broadcast S5000x1 (Scalar.ofBits .f32 0x40000000#32))
          (sitofp .f32 (extui 32 (cmpf .oge (shapeCast S5000x1 sc shapeCasts_S5000x1_S5000x1)
            (broadcast S5000x1 (Scalar.ofBits .f32 0x3F4CCCCD#32))) natLt_1_32))))
      (tanh (sqrt (sumSqCol a1 s2))))

/-- The payload is the column sum of the masked error column, viewed as a [1,1] block. -/
theorem pay4_eq (i : grid0.Coords) (a1 s2 : Vec F S5000x128 .f32) (sc : Vec F S5000x1 .f32) :
    k0_pay4 i a1 s2 sc
      = shapeCast S1x1 (multiReduction .add [0] S1
          (select (inBatch i) (errCol a1 s2 sc) (broadcast S5000x1 (Scalar.ofBits .f32 0x00000000#32)))
          0x00000000#32 reduces_S5000x1_S1 (.inl rfl) rfl) shapeCasts_S1_S1x1 := rfl

/-! ## The mask is all ones -/

/-- Every row of every block is inside the batch: (core·100 + step)·5000 + row ≤ 199·5000 + 4999 < 1000000, and no word wraps. -/
theorem inBatch_apply (i : grid0.Coords) (q : Fin 5000) : inBatch i (ix2 q 0) = 1#1 := by
  have h0 : (i 0).val < 2 := (i 0).isLt
  have h1 : (i 1).val < 100 := (i 1).isLt
  have hq : q.val < 5000 := q.isLt
  have n0 : (BitVec.ofNat 32 (i 0).val).toNat = (i 0).val := by rw [BitVec.toNat_ofNat]; exact Nat.mod_eq_of_lt (by omega)
  have n1 : (BitVec.ofNat 32 (i 1).val).toNat = (i 1).val := by rw [BitVec.toNat_ofNat]; exact Nat.mod_eq_of_lt (by omega)
  have nq : (BitVec.ofNat 32 q.val).toNat = q.val := by rw [BitVec.toNat_ofNat]; exact Nat.mod_eq_of_lt (by omega)
  have e1 : (Scalar.muli (BitVec.ofNat 32 (i 0).val) 100#32).toNat = (i 0).val * 100 := by
    rw [Cert.Lib.scalar_toNat_muli _ _ (by rw [n0]; show _ * 100 < _; omega), n0]; rfl
  have e2 : (Scalar.addi (Scalar.muli (BitVec.ofNat 32 (i 0).val) 100#32) (BitVec.ofNat 32 (i 1).val)).toNat = (i 0).val * 100 + (i 1).val := by
    rw [Cert.Lib.scalar_toNat_addi _ _ (by rw [e1, n1]; omega), e1, n1]
  have e3 : (blockBase i).toNat = ((i 0).val * 100 + (i 1).val) * 5000 := by
    unfold blockBase
    rw [Cert.Lib.scalar_toNat_muli _ _ (by rw [e2]; show _ * 5000 < _; omega), e2]; rfl
  have e4 : (IntOp.addi (blockBase i) (BitVec.ofNat 32 q.val)).toNat = ((i 0).val * 100 + (i 1).val) * 5000 + q.val := by
    rw [Cert.Lib.toNat_addi _ _ (by rw [e3, nq]; omega), e3, nq]
  show IntOp.cmpi .slt (IntOp.addi (blockBase i) (iota .tc S5000x1 32 [0] iota_S5000x1_d0_w32 (ix2 q 0))) 1000000#32 = 1#1
  rw [iota_single_apply]
  show IntOp.cmpi .slt (IntOp.addi (blockBase i) (BitVec.ofNat 32 q.val)) 1000000#32 = 1#1
  rw [IntOp.cmpi_slt, BitVec.toInt_eq_toNat_of_lt (by rw [e4]; omega), e4]
  show (_ : Int) < 1000000
  omega

/-! ## The parts read at a row, on the extended reals -/

/-- The product with the column of ones, read at row `q`: the sum over the 128 lanes of the squared differences
    (the bf16 one denotes 1, the zero accumulator adds nothing, a change of float format is the identity). -/
theorem sumSqCol_apply (a1 s2 : FVec Ideal S5000x128 .f32) (q : Fin 5000) :
    sumSqCol (F := Ideal) a1 s2 (ix2 q 0)
      = ∑ k : Fin 128, (a1 (ix2 q k) - s2 (ix2 q k)) * (a1 (ix2 q k) - s2 (ix2 q k)) := by
  unfold sumSqCol
  refine (Ideal.matmul_constant_zero_apply dot_S5000x128_S128x1_S5000x1_1_0_0_1_n_n none _ _ (ix2 q 0)).trans ?_
  refine (Equiv.sum_comp (contrEquiv1 dot_S5000x128_S128x1_S5000x1_1_0_0_1_n_n 128 rfl rfl).symm _).symm.trans ?_
  refine Finset.sum_congr rfl fun k _ => ?_
  have hl : dot_S5000x128_S128x1_S5000x1_1_0_0_1_n_n.lhsIdx (ix2 q 0)
      ((contrEquiv1 dot_S5000x128_S128x1_S5000x1_1_0_0_1_n_n 128 rfl rfl).symm k) = ix2 q k :=
    funext fun a => Fin.ext (by
      match a with
      | ⟨0, _⟩ => rfl
      | ⟨1, _⟩ =>
        exact (DotDims.lhsIdx_val_of_single dot_S5000x128_S128x1_S5000x1_1_0_0_1_n_n (cl := (1 : Fin 2)) rfl _ _).trans
          (contrEquiv1_symm_val dot_S5000x128_S128x1_S5000x1_1_0_0_1_n_n 128 rfl rfl k))
  have e : ∀ j, (truncf .bf16 (mulf (subf a1 s2) (subf a1 s2)) bitsLt_bf16_f32 : FVec Ideal S5000x128 .bf16) j
      = (a1 j - s2 j) * (a1 j - s2 j) := fun _ => rfl
  have r : ∀ j, (broadcast S128x1 (Scalar.ofBits (F := Ideal) .bf16 0x3F80#16) : FVec Ideal S128x1 .bf16) j
      = Ideal.ofBits .bf16 0x3F80#16 := fun _ => rfl
  rw [e, r, hl, ErrTerm.word_one_bf16, mul_one]

/-- The error column read at row `q`: the signed hinge of the row's bit [score ≥ 0.8] and its squashed distance. -/
theorem errCol_apply (a1 s2 : FVec Ideal S5000x128 .f32) (sc : FVec Ideal S5000x1 .f32) (q : Fin 5000) :
    errCol (F := Ideal) a1 s2 sc (ix2 q 0)
      = ErrTerm.hingeSigned (Ideal.cmp .oge (sc (ix2 q 0)) (Ideal.ofBits .f32 0x3F4CCCCD#32))
          (Ideal.tanh (Ideal.sqrt (∑ k : Fin 128, (a1 (ix2 q k) - s2 (ix2 q k)) * (a1 (ix2 q k) - s2 (ix2 q k))))) := by
  rw [← sumSqCol_apply]
  unfold errCol ErrTerm.hingeSigned
  rw [shapeCast_self]
  rfl

/-- The block's row-sum at its one index is the sum of the error column over the 5000 rows: the column sum adds
    every row, the mask keeps every row, and the cast to a [1,1] block moves nothing. -/
theorem rowsum_apply (i : grid0.Coords) (a1 s2 : FVec Ideal S5000x128 .f32) (sc : FVec Ideal S5000x1 .f32) :
    k0_pay4 (F := Ideal) i a1 s2 sc (ix2 0 0) = ∑ q : Fin 5000, errCol (F := Ideal) a1 s2 sc (ix2 q 0) := by
  rw [pay4_eq]
  refine (shapeCast_apply _ shapeCasts_S1_S1x1 (ix2 0 0) (ix1 0) rfl).trans ?_
  refine (Ideal.multiReduction_add_single _ 0x00000000#32 reduces_S5000x1_S1 (.inl rfl) rfl (ix1 0)).trans ?_
  show ∑ q : Fin 5000, _ = _
  refine Finset.sum_congr rfl fun q _ => ?_
  have e : reduces_S5000x1_S1.lift (ix1 0) q = ix2 q 0 :=
    funext fun a => Fin.ext (by match a with | ⟨0, _⟩ => rfl | ⟨1, _⟩ => rfl)
  rw [e]
  show Scalar.select (inBatch i (ix2 q 0)) _ _ = _
  rw [inBatch_apply, select_one]

end Cert.KernelIdeal.RowSum

end
-- ==== Proof.SumLaws.lean ====
/-
  Three laws of finite sums in a commutative monoid, with no program in sight.

    * a running total that starts a sweep of 100 steps at zero and adds one term per step ends the sweep at the sum
      of the sweep's terms;
    * a sum over a·n consecutive positions is the sum over a blocks of n;
    * a sum in which only position 0 of each block of n contributes is the sum of those contributions.
-/
import Mathlib.Algebra.BigOperators.Fin
import Mathlib.Logic.Equiv.Fin.Basic
import Mathlib.Algebra.BigOperators.Intervals

namespace Cert.SumLaws

variable {M : Type*} [AddCommMonoid M]

/-- A total that is `0 + f` on a sweep's first step and the previous total plus `f` on each later step is, after
    step `k` of the sweep, the sum of the sweep's first `k + 1` terms. -/
theorem sweep_closed (T f : ℕ → M) (b : ℕ)
    (hfirst : T (100 * b) = 0 + f (100 * b))
    (hstep : ∀ k, k + 1 < 100 → T (100 * b + (k + 1)) = T (100 * b + k) + f (100 * b + (k + 1))) :
    ∀ k, k < 100 → T (100 * b + k) = ∑ s ∈ Finset.range (k + 1), f (100 * b + s)
  | 0, _ => by rw [Nat.add_zero, hfirst, Finset.sum_range_one, Nat.add_zero, zero_add]
  | k + 1, hk => by
    rw [hstep k hk, sweep_closed T f b hfirst hstep k (by omega), Finset.sum_range_succ _ (k + 1)]

/-- A sum over `a · n` positions, block by block: position `n · t + q` is row `q` of block `t`. -/
theorem sum_blocks (a n : ℕ) (f : ℕ → M) :
    ∑ r : Fin (a * n), f r.val = ∑ t : Fin a, ∑ q : Fin n, f (n * t.val + q.val) := by
  rw [← (finProdFinEquiv (m := a) (n := n)).sum_comp, Fintype.sum_prod_type]
  refine Finset.sum_congr rfl fun t _ => Finset.sum_congr rfl fun q _ => ?_
  rw [finProdFinEquiv_apply_val, Nat.add_comm]

/-- When only row 0 of each block of `n` rows contributes, the sum over all rows is the sum of the blocks' row-0 terms. -/
theorem sum_block_heads (a n : ℕ) (hn : 0 < n) (g : ℕ → M) :
    ∑ r : Fin (a * n), (if r.val % n = 0 then g (r.val / n) else 0) = ∑ t : Fin a, g t.val := by
  rw [sum_blocks a n (fun r => if r % n = 0 then g (r / n) else 0)]
  refine Finset.sum_congr rfl fun t _ => ?_
  rw [Finset.sum_eq_single (⟨0, hn⟩ : Fin n)]
  · simp [Nat.mul_div_cancel_left _ hn]
  · intro q _ hq
    have hq0 : q.val ≠ 0 := fun h => hq (Fin.ext h)
    have : (n * t.val + q.val) % n = q.val := by
      rw [Nat.mul_add_mod]; exact Nat.mod_eq_of_lt q.isLt
    rw [this, if_neg hq0]
  · intro h; exact absurd (Finset.mem_univ _) h

end Cert.SumLaws
-- ==== Proof.RunningTotal.lean ====
/-
  The running total the body carries across grid points, in closed form.

  Core `b` sweeps the 100 blocks 100·b … 100·b + 99. After the point at position `n` the carried scratch holds
      total n = (zero if n is the first step of a sweep, else total (n - 1)) + (row-sum of block n),
  and on a sweep's last step the output block is written from that total. So after the last step of sweep `b` the
  total is the sum of the 100 row-sums of the sweep — on the extended reals, where addition is associative and
  zero is neutral, the order in which the steps added them does not matter.
-/
import proofs.«116210_j44487271252809_2_alg».proof.Proof.CasePieces
import proofs.«116210_j44487271252809_2_alg».proof.Proof.RowSum
import proofs.«116210_j44487271252809_2_alg».proof.Proof.SumLaws

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ)

/-! ## The recursion the grid performs (any float instance) -/

/-- What the carried scratch holds after the point at position `n`. -/
def total (c : Dev nD) : (n : ℕ) → n < cfg0.N → Vec F S1x1 .f32
  | 0, h => bump (grid0.coords ⟨0, h⟩) (iblk m c 0 ⟨0, h⟩) (iblk m c 1 ⟨0, h⟩) (iblk m c 2 ⟨0, h⟩) (k0_pay3 (F := F))
  | n + 1, h => bump (grid0.coords ⟨n + 1, h⟩) (iblk m c 0 ⟨n + 1, h⟩) (iblk m c 1 ⟨n + 1, h⟩) (iblk m c 2 ⟨n + 1, h⟩)
      (if (n + 1) % 100 = 0 then k0_pay3 (F := F) else total c n (Nat.lt_of_succ_lt h))

/-- The generated point-by-point contents of the scratch are that recursion: by induction on the position, one case
    lemma per kind of step. -/
theorem scratch_eq_total (c : Dev nD) : ∀ (n : ℕ) (h : n < cfg0.N), (outsAt0 m c n h).2 = total m c n h
  | 0, h =>
    (congrArg Prod.snd (outsAt0_A m c ⟨0, h⟩ rfl (by show ¬(0 % 100 = 99); decide))).trans
      (scratch_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
        (ms0_3 ⟨0, h⟩) (hs0_3 ⟨0, h⟩) scM0_0 (Memref.isWhole_whole _) ((hcond0_0 ⟨0, h⟩).mpr rfl)
        (fun hh => absurd ((hcond0_1 ⟨0, h⟩).mp hh) (by show ¬(0 % 100 = 99); decide)) (iblk m c 0 ⟨0, h⟩) (iblk m c 1 ⟨0, h⟩) (iblk m c 2 ⟨0, h⟩))
  | n + 1, h => by
    have hN : cfg0.N = 200 := N_0
    by_cases h0 : (n + 1) % 100 = 0
    · have h1 : ¬(n + 1) % 100 = 99 := by omega
      refine (congrArg Prod.snd (outsAt0_A m c ⟨n + 1, h⟩ h0 h1)).trans ?_
      refine (scratch_A c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (ms0_3 ⟨n + 1, h⟩) (hs0_3 ⟨n + 1, h⟩) scM0_0 (Memref.isWhole_whole _)
        ((hcond0_0 ⟨n + 1, h⟩).mpr h0) (fun hh => h1 ((hcond0_1 ⟨n + 1, h⟩).mp hh))
        (iblk m c 0 ⟨n + 1, h⟩) (iblk m c 1 ⟨n + 1, h⟩) (iblk m c 2 ⟨n + 1, h⟩)).trans ?_
      show _ = bump _ _ _ _ (if (n + 1) % 100 = 0 then k0_pay3 (F := F) else total m c n (Nat.lt_of_succ_lt h))
      rw [if_pos h0]
    · by_cases h1 : (n + 1) % 100 = 99
      · refine (congrArg Prod.snd (outsAt0_C m c ⟨n + 1, h⟩ h0 h1)).trans ?_
        refine (scratch_C c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) (ms0_3 ⟨n + 1, h⟩) (hs0_3 ⟨n + 1, h⟩) scM0_0 (Memref.isWhole_whole _)
          (fun hh => h0 ((hcond0_0 ⟨n + 1, h⟩).mp hh)) ((hcond0_1 ⟨n + 1, h⟩).mpr h1)
          (iblk m c 0 ⟨n + 1, h⟩) (iblk m c 1 ⟨n + 1, h⟩) (iblk m c 2 ⟨n + 1, h⟩) (outsAt0 m c n (Nat.lt_of_succ_lt h)).2).trans ?_
        show bump _ _ _ _ (outsAt0 m c n (Nat.lt_of_succ_lt h)).2
          = bump _ _ _ _ (if (n + 1) % 100 = 0 then k0_pay3 (F := F) else total m c n (Nat.lt_of_succ_lt h))
        rw [if_neg h0, scratch_eq_total c n]
      · refine (congrArg Prod.snd (outsAt0_B m c ⟨n + 1, h⟩ h0 h1)).trans ?_
        refine (scratch_B c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) (ms0_3 ⟨n + 1, h⟩) (hs0_3 ⟨n + 1, h⟩) scM0_0 (Memref.isWhole_whole _)
          (fun hh => h0 ((hcond0_0 ⟨n + 1, h⟩).mp hh)) (fun hh => h1 ((hcond0_1 ⟨n + 1, h⟩).mp hh))
          (iblk m c 0 ⟨n + 1, h⟩) (iblk m c 1 ⟨n + 1, h⟩) (iblk m c 2 ⟨n + 1, h⟩) (outsAt0 m c n (Nat.lt_of_succ_lt h)).2).trans ?_
        show bump _ _ _ _ (outsAt0 m c n (Nat.lt_of_succ_lt h)).2
          = bump _ _ _ _ (if (n + 1) % 100 = 0 then k0_pay3 (F := F) else total m c n (Nat.lt_of_succ_lt h))
        rw [if_neg h0, scratch_eq_total c n]

/-- On a sweep's last step the output's staging buffer is written from the total just stored. -/
theorem out_eq_of_last (c : Dev nD) (t : Fin cfg0.N) (h99 : t.val % 100 = 99) :
    (outsAt0 m c t.val t.isLt).1 = k0_pay2 (total m c t.val t.isLt) := by
  have h0 : ¬t.val % 100 = 0 := by omega
  rw [← scratch_eq_total m c t.val t.isLt, outsAt0_C m c t h0 h99]
  dsimp only
  rw [out_C, scratch_C]

/-! ## The recursion read on the extended reals -/

section AtIdeal

variable (mI : (ℓ : Loc nD τ sig) → Buf (Elt Ideal) ℓ)

/-- The row-sum of the block at point `t`, at its one index. -/
def blockSum (c : Dev nD) (t : Fin cfg0.N) : EReal :=
  k0_pay4 (F := Ideal) (grid0.coords t) (iblk mI c 1 t) (iblk mI c 0 t) (iblk mI c 2 t) (ix2 0 0)

/-- A step adds the block's row-sum to what the scratch held (the cast to the same shape moves nothing). -/
theorem bump_apply (i : grid0.Coords) (x0 x1 : Vec Ideal S5000x128 .f32) (x2 : Vec Ideal S5000x1 .f32) (xs : Vec Ideal S1x1 .f32) :
    bump (F := Ideal) i x0 x1 x2 xs (ix2 0 0) = xs (ix2 0 0) + k0_pay4 (F := Ideal) i x1 x0 x2 (ix2 0 0) := by
  show k0_pay1 (k0_pay4 i x1 x0 x2) xs (ix2 0 0) = _
  unfold k0_pay1
  rw [shapeCast_self]
  rfl

/-- The zero a sweep starts from denotes 0. -/
theorem zero_apply : k0_pay3 (F := Ideal) (ix2 0 0) = 0 := by
  unfold k0_pay3
  rw [shapeCast_self]
  exact Ideal.ofBits_zero_f32

/-- On the first step of a sweep the total is zero plus the block's row-sum; -/
theorem total_first (c : Dev nD) (n : ℕ) (h : n < cfg0.N) (h0 : n % 100 = 0) :
    total mI c n h (ix2 0 0) = 0 + blockSum mI c ⟨n, h⟩ := by
  cases n with
  | zero => rw [total, bump_apply, zero_apply]; rfl
  | succ n => rw [total, bump_apply, if_pos h0, zero_apply]; rfl

/-- on every other step, the previous total plus the block's row-sum. -/
theorem total_step (c : Dev nD) (n : ℕ) (h : n + 1 < cfg0.N) (h0 : ¬(n + 1) % 100 = 0) :
    total mI c (n + 1) h (ix2 0 0) = total mI c n (Nat.lt_of_succ_lt h) (ix2 0 0) + blockSum mI c ⟨n + 1, h⟩ := by
  rw [total, bump_apply, if_neg h0]; rfl

/-- The total after position `n` as a function of a bare number (zero past the grid), -/
def totalAt (c : Dev nD) (n : ℕ) : EReal := if h : n < cfg0.N then total mI c n h (ix2 0 0) else 0

/-- and the block row-sums likewise. -/
def blockSumAt (c : Dev nD) (n : ℕ) : EReal := if h : n < cfg0.N then blockSum mI c ⟨n, h⟩ else 0

/-- After the last step of core `b`'s sweep the total is the sum of the sweep's 100 row-sums. -/
theorem totalAt_last (c : Dev nD) (b : ℕ) (hb : b < 2) :
    totalAt mI c (100 * b + 99) = ∑ s : Fin 100, blockSumAt mI c (100 * b + s.val) := by
  have hN : cfg0.N = 200 := N_0
  rw [← Finset.sum_range (fun s => blockSumAt mI c (100 * b + s))]
  refine Cert.SumLaws.sweep_closed (totalAt mI c) (blockSumAt mI c) b ?_ ?_ 99 (by omega)
  · have hlt : 100 * b < cfg0.N := by omega
    unfold totalAt blockSumAt
    rw [dif_pos hlt, dif_pos hlt]
    exact total_first mI c (100 * b) hlt (Nat.mul_mod_right 100 b)
  · intro k hk
    have hlt : 100 * b + k + 1 < cfg0.N := by omega
    have hlt' : 100 * b + k < cfg0.N := by omega
    show totalAt mI c (100 * b + k + 1) = totalAt mI c (100 * b + k) + blockSumAt mI c (100 * b + k + 1)
    unfold totalAt blockSumAt
    rw [dif_pos hlt, dif_pos hlt', dif_pos hlt]
    exact total_step mI c (100 * b + k) hlt (by omega)

end AtIdeal

end Cert.KernelIdeal.Acc

end
-- ==== Proof.LibKeepdimsColumn.lean ====
/-
  The keepdims COLUMN forms of two layout operations, read at an index given by coordinates: what a sum over the last
  axis with the reduced axis kept (a column of per-row values) needs when the column is built from a vector and then
  spread over the columns of a matrix.
    * `shapeCast_a_a1_apply`: an `[a]` vector cast to an `[a, 1]` column reads, at `(i, u)`, the vector at `i`.
    * `broadcastTo_a1_ab_apply`: an `[a, 1]` column broadcast to `[a, b]` reads, at `(i, c)`, the column at `(i, 0)`.
  Both are the library's general read-at-an-index lemmas with the coordinate arithmetic done once, for any extents.
-/
import Idealize.ShloMosaic.Lib.Pipeline.Value
import Idealize.ShloMosaic.Lib.ValueIdx

namespace Cert.Lib.KeepdimsColumn

open Idealize.ShloMosaic Idealize.ShloMosaic.ValueIdx

variable {α : Type}

/-- An `[a]` vector cast to an `[a, 1]` column reads, at `(i, u)`, the vector at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, c)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

end Cert.Lib.KeepdimsColumn
-- ==== Proof.BlockReads.lean ====
/-
  What the input windows' blocks read, in terms of the argument arrays.

  The grid has 200 points; point `t` is step `t mod 100` of core `t div 100`'s sweep, and all three input windows
  take block `t` of their arrays: rows 5000·t … 5000·t + 4999. The third window's array is the score vector
  viewed as a column (a reshape before the region), so its entry (r, 0) is the score of row r.
-/
import proofs.«116210_j44487271252809_2_alg».proof.Proof.Gen.KernelIdeal.Frame
import proofs.«116210_j44487271252809_2_alg».proof.Proof.LibKeepdimsColumn
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-- The printed index maps, decided once over the grid: the inputs take block `t`, the output block `t div 100`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val / 100 ∧ win0_3.index t (1 : Fin 2) = 0 :=
  (by decide +kernel : ∀ t : Fin grid0.N, _)

/-- The global row number of row `q` of block `t`. -/
def row (t : Fin cfg0.N) (q : Fin 5000) : Fin 1000000 :=
  ⟨5000 * t.val + q.val, by have hN : cfg0.N = 200 := N_0; have := t.isLt; have := q.isLt; omega⟩

theorem row_val (t : Fin cfg0.N) (q : Fin 5000) : (row t q).val = 5000 * t.val + q.val := rfl

/-- Window 0's block at point `t` reads the first argument at the block's rows. -/
theorem iblk0_apply (c : Dev nD) (t : Fin cfg0.N) (q : Fin 5000) (k : Fin 128) :
    (iblk m c 0 t : Vec F S5000x128 .f32) (ix2 q k) = m ((c : Thread nD τ).loc main_arg0) (ix2 (row t q) k) := by
  unfold iblk
  rw [View.read_apply]
  show V m c main_arg0 _ = _
  rw [V_main_arg0]
  refine congrArg _ (funext fun a => Fin.ext ?_)
  match a with
  | ⟨0, _⟩ => show win0_0.index t (0 : Fin 2) * 5000 + 1 * q.val = 5000 * t.val + q.val; rw [(idx_facts t).1]; omega
  | ⟨1, _⟩ => show win0_0.index t (1 : Fin 2) * 128 + 1 * k.val = k.val; rw [(idx_facts t).2.1]; omega

/-- Window 1's block at point `t` reads the second argument at the block's rows. -/
theorem iblk1_apply (c : Dev nD) (t : Fin cfg0.N) (q : Fin 5000) (k : Fin 128) :
    (iblk m c 1 t : Vec F S5000x128 .f32) (ix2 q k) = m ((c : Thread nD τ).loc main_arg1) (ix2 (row t q) k) := by
  unfold iblk
  rw [View.read_apply]
  show V m c main_arg1 _ = _
  rw [V_main_arg1]
  refine congrArg _ (funext fun a => Fin.ext ?_)
  match a with
  | ⟨0, _⟩ => show win0_1.index t (0 : Fin 2) * 5000 + 1 * q.val = 5000 * t.val + q.val; rw [(idx_facts t).2.2.1]; omega
  | ⟨1, _⟩ => show win0_1.index t (1 : Fin 2) * 128 + 1 * k.val = k.val; rw [(idx_facts t).2.2.2.1]; omega

/-- The region finds the third window's array at the score vector viewed as a column. -/
theorem V_score (c : Dev nD) :
    (V m c main_v0 : S1000000x1.Idx → Elt F .f32)
      = shapeCast S1000000x1 (m ((c : Thread nD τ).loc main_arg2)) shapeCasts_S1000000_S1000000x1 := by
  show StableHlo.after hostOps0 (fun b => m (c, b)) (Proc.devRef .tc main_v0) = _
  after_results
  rfl

/-- Window 2's block at point `t` reads the score of each of the block's rows. -/
theorem iblk2_apply (c : Dev nD) (t : Fin cfg0.N) (q : Fin 5000) :
    (iblk m c 2 t : Vec F S5000x1 .f32) (ix2 q 0) = m ((c : Thread nD τ).loc main_arg2) (ix1 (row t q)) := by
  unfold iblk
  rw [View.read_apply]
  show V m c main_v0 _ = _
  rw [V_score]
  refine Eq.trans (congrArg _ (funext fun a => Fin.ext ?_)) (Cert.Lib.KeepdimsColumn.shapeCast_a_a1_apply _ _ (row t q) (0 : Fin 1))
  match a with
  | ⟨0, _⟩ => show win0_2.index t (0 : Fin 2) * 5000 + 1 * q.val = 5000 * t.val + q.val; rw [(idx_facts t).2.2.2.2.1]; omega
  | ⟨1, _⟩ => show win0_2.index t (1 : Fin 2) * 1 + 1 * 0 = 0; rw [(idx_facts t).2.2.2.2.2.1]

end Cert.KernelIdeal.Blocks

end
-- ==== Proof.OutputArray.lean ====
/-
  The array the region leaves behind: a [16, 1] column holding, in row 8·b, the total of core `b`'s sweep, and zeros
  in the other rows.

  The output window's block is [8, 1]; it is written back only on the last step of a sweep (positions 99 and 199),
  as block `b` of the array, from the total just stored: the total in the block's row 0 and zeros below. The two
  blocks cover the array.
-/
import proofs.«116210_j44487271252809_2_alg».proof.Proof.RunningTotal
import proofs.«116210_j44487271252809_2_alg».proof.Proof.BlockReads

noncomputable section

open Idealize.ShloMosaic Idealize.ShloMosaic.TcCoe Idealize.SL.Sem Idealize.ShloMosaic.ValueIdx
open Idealize.ShloMosaic.Pipeline (Dat)

namespace Cert.KernelIdeal.Out

open Cert.KernelIdeal Cert.KernelIdeal.Gen Cert.KernelIdeal.Acc Cert.KernelIdeal.Blocks

variable (mI : (ℓ : Loc nD τ sig) → Buf (Elt Ideal) ℓ)

/-- The output block's payload read at row `r`: the total in row 0, the zero elsewhere. -/
theorem pay2_apply (v : Vec Ideal S1x1 .f32) (r : Fin 8) :
    k0_pay2 (F := Ideal) v (ix2 r 0) = if r.val = 0 then v (ix2 0 0) else 0 := by
  have key : ∀ r : Fin 8, IntOp.cmpi .eq (BitVec.ofNat 32 r.val) (0#32) = if r.val = 0 then 1#1 else 0#1 := by decide
  unfold k0_pay2
  show Scalar.select (IntOp.cmpi .eq (iota .tc S8x1 32 [0] iota_S8x1_d0_w32 (ix2 r 0)) 0#32)
      (broadcastTo S8x1 (shapeCast S1x1 v shapeCasts_S1x1_S1x1) broadcasts_S1x1_S8x1 (ix2 r 0)) (Ideal.ofBits .f32 0x00000000#32) = _
  rw [iota_single_apply, shapeCast_self,
    broadcastTo_apply v broadcasts_S1x1_S8x1 (ix2 r 0) (ix2 0 0) (fun a => by match a with | ⟨0, _⟩ => rfl | ⟨1, _⟩ => rfl),
    Ideal.ofBits_zero_f32]
  show Scalar.select (IntOp.cmpi .eq (BitVec.ofNat 32 r.val) 0#32) _ _ = _
  rw [key r]
  by_cases hr : r.val = 0
  · rw [if_pos hr, if_pos hr, select_one]
  · rw [if_neg hr, if_neg hr, select_zero]

/-- The array after the region. -/
def outArr (c : Dev nD) : S16x1.Idx → EReal := fun j =>
  if (j 0).val % 8 = 0 then totalAt mI c (100 * ((j 0).val / 8) + 99) else 0

/-- What a flushing point writes back is its block of that array. -/
theorem flushed_eq (c : Dev nD) (t : Fin cfg0.N) (hf : (cfg0.win 3).flush t = true) :
    (dats mI 0 c).flushed 3 t = ((cfg0.win 3).blk t).view.read (Elt Ideal) (outArr mI c) := by
  have hN : cfg0.N = 200 := N_0
  have h99 : t.val % 100 = 99 := (flush0_3 t).mp hf
  have hlt : t.val < 200 := hN ▸ t.isLt
  show (cfg0.win 3).cut (grid0.coords t) ((dats mI 0 c).after 3 t) = _
  rw [after0_3, out_eq_of_last mI c t h99]
  funext y
  obtain ⟨r, u, rfl⟩ : ∃ (r : Fin 8) (u : Fin 1), y = ix2 r u := ⟨y 0, y 1, eq_ix2 y⟩
  obtain rfl : u = 0 := Subsingleton.elim _ _
  rw [View.read_apply]
  have e : ((cfg0.win 3).blk t).view.emb (ix2 r (0 : Fin 1))
      = ix2 (⟨8 * (t.val / 100) + r.val, by have := r.isLt; omega⟩ : Fin 16) (0 : Fin 1) :=
    funext fun a => Fin.ext (by
      match a with
      | ⟨0, _⟩ => show win0_3.index t (0 : Fin 2) * 8 + 1 * r.val = 8 * (t.val / 100) + r.val; rw [(idx_facts t).2.2.2.2.2.2.1]; omega
      | ⟨1, _⟩ => show win0_3.index t (1 : Fin 2) * 1 + 1 * 0 = 0; rw [(idx_facts t).2.2.2.2.2.2.2])
  rw [e]
  show k0_pay2 (F := Ideal) (total mI c t.val t.isLt) (ix2 r 0) = outArr mI c (ix2 _ _)
  rw [pay2_apply]
  unfold outArr
  show _ = if (8 * (t.val / 100) + r.val) % 8 = 0 then totalAt mI c (100 * ((8 * (t.val / 100) + r.val) / 8) + 99) else 0
  have hr := r.isLt
  by_cases hr0 : r.val = 0
  · have e1 : (8 * (t.val / 100) + r.val) % 8 = 0 := by omega
    have e2 : 100 * ((8 * (t.val / 100) + r.val) / 8) + 99 = t.val := by omega
    rw [if_pos hr0, if_pos e1, e2]
    unfold totalAt
    rw [dif_pos t.isLt]
  · have e1 : ¬(8 * (t.val / 100) + r.val) % 8 = 0 := by omega
    rw [if_neg hr0, if_neg e1]

/-- The two written-back blocks cover the array, so the array after the region is `outArr`. -/
theorem final_out (c : Dev nD) : (dats mI 0 c).arrAt 3 cfg0.N = outArr mI c :=
  (dats mI 0 c).arrAt_eq_of_cover 3 (outArr mI c) (flushed_eq mI c) fun i => by
    have hN : cfg0.N = 200 := N_0
    have hi : (i 0).val < 16 := (i 0).isLt
    have hi1 : (i 1).val < 1 := (i 1).isLt
    obtain ⟨t0, ht0⟩ : ∃ t0 : Fin cfg0.N, t0.val = 100 * ((i 0).val / 8) + 99 := ⟨⟨_, by omega⟩, rfl⟩
    refine ⟨t0, (flush0_3 t0).mpr (by rw [ht0]; omega), ?_⟩
    show i ∈ ((View.whole main_v1).slice (win0_3.rect t0)).set
    rw [View.set_slice_whole, Rect.mem_set_unit]
    intro a
    have f := idx_facts t0
    match a with
    | ⟨0, _⟩ =>
      show win0_3.index t0 (0 : Fin 2) * 8 ≤ (i 0).val ∧ (i 0).val < win0_3.index t0 (0 : Fin 2) * 8 + 8
      rw [f.2.2.2.2.2.2.1, ht0]
      omega
    | ⟨1, _⟩ =>
      show win0_3.index t0 (1 : Fin 2) * 1 ≤ (i 1).val ∧ (i 1).val < win0_3.index t0 (1 : Fin 2) * 1 + 1
      rw [f.2.2.2.2.2.2.2]
      omega

end Cert.KernelIdeal.Out

end
-- ==== Proof.LossSpec.lean ====
/-
  The loss as one function of the three argument arrays, on the extended reals, with no program in sight:

      loss A1 S2 SC = ( 0 + Σ_{r < 1000000} rowErr r ) / 1000000,
      rowErr r      = hinge ( [SC r ≥ 0.8],  tanh (sqrt (Σ_{k < 128} (A1 r k - S2 r k)²)) ).

  The row error is stated in the signed spelling of the hinge; `rowErr_eq_clamped` is the same value in the clamped
  spelling (the two agree because the squashed distance of a sum of squares always lies in [0, 1]).
-/
import proofs.«116210_j44487271252809_2_alg».proof.Proof.ErrTerm
import Idealize.ShloMosaic.Lib.ValueIdx

noncomputable section

namespace Cert.LossSpec

open Idealize.ShloMosaic Idealize.ShloMosaic.ValueIdx

/-- The two embedding arrays' shape and the score vector's. -/
abbrev SEmb : Shape := ⟨2, ![1000000, 128]⟩
abbrev SScore : Shape := ⟨1, ![1000000]⟩

/-- A rank-1 index is its one coordinate. -/
def idx1Equiv (n : ℕ) : (⟨1, ![n]⟩ : Shape).Idx ≃ Fin n where
  toFun j := j 0
  invFun := ix1
  left_inv j := (eq_ix1 j).symm
  right_inv _ := rfl

/-- So a sum over a rank-1 index type is the sum over its coordinate. -/
theorem sum_idx1 {M : Type*} [AddCommMonoid M] {n : ℕ} (f : (⟨1, ![n]⟩ : Shape).Idx → M) :
    ∑ j, f j = ∑ r : Fin n, f (ix1 r) :=
  (Equiv.sum_comp (idx1Equiv n).symm f).symm

/-- The squared distance between row `r` of the two embedding arrays. -/
def sumSq (A1 S2 : SEmb.Idx → EReal) (r : Fin 1000000) : EReal :=
  ∑ k : Fin 128, (A1 (ix2 r k) - S2 (ix2 r k)) * (A1 (ix2 r k) - S2 (ix2 r k))

/-- The row's bit: its score is at least the threshold word (0.8 rounded to f32; the same word in both programs). -/
def isAntonym (SC : SScore.Idx → EReal) (r : Fin 1000000) : BitVec 1 :=
  Ideal.cmp .oge (SC (ix1 r)) (Ideal.ofBits .f32 0x3F4CCCCD#32)

/-- The row's error. -/
def rowErr (A1 S2 : SEmb.Idx → EReal) (SC : SScore.Idx → EReal) (r : Fin 1000000) : EReal :=
  ErrTerm.hingeSigned (isAntonym SC r) (Ideal.tanh (Ideal.sqrt (sumSq A1 S2 r)))

/-- The same value with both clamps written out. -/
theorem rowErr_eq_clamped (A1 S2 : SEmb.Idx → EReal) (SC : SScore.Idx → EReal) (r : Fin 1000000) :
    rowErr A1 S2 SC r = ErrTerm.hingeClamped (isAntonym SC r) (Ideal.tanh (Ideal.sqrt (sumSq A1 S2 r))) :=
  ErrTerm.hinge_eq _ _ (ErrTerm.squash_range (ErrTerm.sum_sq_nonneg _ _))

/-- The mean of the row errors, as both programs compute it: a sum started at the zero word, divided by the word of 1000000. -/
def loss (A1 S2 : SEmb.Idx → EReal) (SC : SScore.Idx → EReal) : EReal :=
  Ideal.div (Ideal.ofBits .f32 0x00000000#32 + ∑ r : Fin 1000000, rowErr A1 S2 SC r) (Ideal.ofBits .f32 0x49742400#32)

end Cert.LossSpec

end
-- ==== Proof.KernelLoss.lean ====
/-
  The kernel computes the loss: its result, after the host operations that follow the region, is `LossSpec.loss` of
  its arguments.

  After the region the host sums the [16, 1] column from a zero and divides by 1000000. The column's only non-zero
  rows are 0 and 8, holding the totals of the two cores' sweeps; each total is the sum of its sweep's 100 block
  row-sums; each block row-sum is the sum of its 5000 rows' errors; and the 200 blocks of 5000 rows are the
  1000000 rows. All of it is re-association of one finite sum on the extended reals.
-/
import proofs.«116210_j44487271252809_2_alg».proof.Proof.OutputArray
import proofs.«116210_j44487271252809_2_alg».proof.Proof.LossSpec
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.KLoss

open Cert.KernelIdeal Cert.KernelIdeal.Gen Cert.KernelIdeal.Acc Cert.KernelIdeal.Blocks Cert.KernelIdeal.Out

variable (mI : (ℓ : Loc nD τ sig) → Buf (Elt Ideal) ℓ) (ρ : Dev nD → PrngReg)

/-! ## A block's row-sum is the sum of its rows' errors -/

/-- The block at point `t` sums the row errors of rows 5000·t … 5000·t + 4999 of the arguments. -/
theorem blockSum_eq (c : Dev nD) (t : Fin cfg0.N) :
    blockSum mI c t = ∑ q : Fin 5000, LossSpec.rowErr (mI ((c : Thread nD τ).loc main_arg1)) (mI ((c : Thread nD τ).loc main_arg0))
      (mI ((c : Thread nD τ).loc main_arg2)) (row t q) := by
  unfold blockSum
  rw [RowSum.rowsum_apply]
  refine Finset.sum_congr rfl fun q _ => ?_
  rw [RowSum.errCol_apply]
  unfold LossSpec.rowErr LossSpec.sumSq LossSpec.isAntonym
  rw [iblk2_apply]
  simp only [iblk0_apply, iblk1_apply]

/-- The row errors as a function of a bare row number (zero past the batch). -/
def rowErrAt (c : Dev nD) (n : ℕ) : EReal :=
  if h : n < 1000000 then LossSpec.rowErr (mI ((c : Thread nD τ).loc main_arg1)) (mI ((c : Thread nD τ).loc main_arg0))
    (mI ((c : Thread nD τ).loc main_arg2)) ⟨n, h⟩ else 0

theorem blockSumAt_eq (c : Dev nD) (t : Fin 200) :
    blockSumAt mI c t.val = ∑ q : Fin 5000, rowErrAt mI c (5000 * t.val + q.val) := by
  have hN : cfg0.N = 200 := N_0
  have ht : t.val < cfg0.N := by have := t.isLt; omega
  unfold blockSumAt
  rw [dif_pos ht, blockSum_eq]
  refine Finset.sum_congr rfl fun q _ => ?_
  have hq : 5000 * t.val + q.val < 1000000 := by have := t.isLt; have := q.isLt; omega
  unfold rowErrAt
  rw [dif_pos hq]
  rfl

/-! ## The column's sum is the sum of all row errors -/

theorem sum_outArr (c : Dev nD) :
    ∑ j : S16x1.Idx, outArr mI c j = ∑ r : Fin 1000000, LossSpec.rowErr (mI ((c : Thread nD τ).loc main_arg1))
      (mI ((c : Thread nD τ).loc main_arg0)) (mI ((c : Thread nD τ).loc main_arg2)) r := by
  -- the column, row by row
  rw [sum_idx2 (n0 := 16) (n1 := 1)]
  have e1 : ∀ a : Fin 16, ∑ u : Fin 1, outArr mI c (ix2 a u)
      = if a.val % 8 = 0 then totalAt mI c (100 * (a.val / 8) + 99) else 0 := fun a => by
    rw [Fintype.sum_unique]; rfl
  simp only [e1]
  -- only the two block heads contribute
  rw [show (∑ a : Fin 16, (if a.val % 8 = 0 then totalAt mI c (100 * (a.val / 8) + 99) else 0))
      = ∑ a : Fin (2 * 8), (if a.val % 8 = 0 then totalAt mI c (100 * (a.val / 8) + 99) else 0) from rfl,
    Cert.SumLaws.sum_block_heads 2 8 (by omega) (fun b => totalAt mI c (100 * b + 99))]
  -- each head is its sweep's 100 row-sums; the two sweeps are the 200 blocks
  have e2 : ∀ b : Fin 2, totalAt mI c (100 * b.val + 99) = ∑ s : Fin 100, blockSumAt mI c (100 * b.val + s.val) :=
    fun b => totalAt_last mI c b.val b.isLt
  simp only [e2]
  rw [← Cert.SumLaws.sum_blocks 2 100 (blockSumAt mI c)]
  -- each block is its 5000 rows; the 200 blocks are the batch
  rw [show (∑ t : Fin (2 * 100), blockSumAt mI c t.val) = ∑ t : Fin 200, blockSumAt mI c t.val from rfl]
  simp only [blockSumAt_eq]
  rw [← Cert.SumLaws.sum_blocks 200 5000 (rowErrAt mI c)]
  rw [show (∑ r : Fin (200 * 5000), rowErrAt mI c r.val) = ∑ r : Fin 1000000, rowErrAt mI c r.val from rfl]
  refine Finset.sum_congr rfl fun r _ => ?_
  unfold rowErrAt
  rw [dif_pos r.isLt]

/-! ## The host operations after the region -/

/-- The result buffer after the host tail: the column summed from the zero word and divided by the word of 1000000. -/
theorem tail_eq (c : Dev nD) :
    Pipeline.afterTail₀ cfgs (dats mI) 0 (V0 mI) [hostOps1] c main_v3
      = Host.divf (F := Ideal) (Host.reduceAdd (F := Ideal) (outArr mI c) (constant (F := Ideal) S_ .f32 0x00000000#32) reducesTo_S16x1_S_d0_1 h_S_)
          (constant (F := Ideal) S_ .f32 0x49742400#32) := by
  unfold Pipeline.afterTail₀
  show StableHlo.after hostOps1 _ (Proc.devRef .tc main_v3) = _
  after_results
  have e : Pipeline.withArrays (cfgs 0).spec c (V0 mI c) (fun w => (dats mI 0 c).arrAt w (cfgs 0).N) (Proc.devRef .tc main_v1)
      = outArr mI c := (Pipeline.withArrays_arr spec0 launch0.win.arr_inj c _ _ 3).trans (final_out mI c)
  rw [e]

/-- So the kernel's result is the loss of its arguments. -/
theorem result_eq (c : Dev nD) :
    Pipeline.afterTail₀ cfgs (dats mI) 0 (V0 mI) [hostOps1] c main_v3
      = fun _ => LossSpec.loss (mI ((c : Thread nD τ).loc main_arg1)) (mI ((c : Thread nD τ).loc main_arg0))
          (mI ((c : Thread nD τ).loc main_arg2)) := by
  rw [tail_eq]
  funext i
  unfold LossSpec.loss
  rw [← sum_outArr]
  simp only [Host.divf, Host.reduceAdd, Ideal.hostReduceAdd_def, Ideal.hostDivf_def]
  rw [Ideal.hostReduceAdd_total reducesTo_S16x1_S_d0_1 (fun b => b.elim0) (outArr mI c) _ i]
  rfl

/-! ## The run, read -/

/-- Every weakly fair execution of the idealized kernel terminates with its result at the loss of the arguments as
    launched, and the arguments unchanged. -/
theorem run : θ_run defs (onTc (τ := τ) (main (F := Ideal))) ⟨mI, fun _ => 0, ρ⟩ fun r => ∀ c : Dev nD,
      r.2.mem ((c.tc : Thread nD τ).loc main_v3)
          = (fun _ => LossSpec.loss (mI ((c.tc : Thread nD τ).loc main_arg1)) (mI ((c.tc : Thread nD τ).loc main_arg0))
              (mI ((c.tc : Thread nD τ).loc main_arg2)))
      ∧ r.2.mem ((c.tc : Thread nD τ).loc main_arg0) = mI ((c.tc : Thread nD τ).loc main_arg0)
      ∧ r.2.mem ((c.tc : Thread nD τ).loc main_arg1) = mI ((c.tc : Thread nD τ).loc main_arg1)
      ∧ r.2.mem ((c.tc : Thread nD τ).loc main_arg2) = mI ((c.tc : Thread nD τ).loc main_arg2) :=
  (θ_run defs _ _).mono (fun _ h c =>
    ⟨((h c).2 main_v3 (Pipeline.mem_restRefs_of main_v3 (by decide) (by decide))).trans (result_eq mI c),
      ((h c).1 0).trans (((dats mI 0 c).arrAt_in 0 rfl _).trans ((A_eq mI c 0).trans (V_main_arg0 mI c))),
      ((h c).1 1).trans (((dats mI 0 c).arrAt_in 1 rfl _).trans ((A_eq mI c 1).trans (V_main_arg1 mI c))),
      ((h c).2 main_arg2 (Pipeline.mem_restRefs_of main_arg2 (by decide) (by decide))).trans (W_main_arg2 mI (dats mI) c)⟩)
    (run_main mI ρ)

end Cert.KernelIdeal.KLoss

end
-- ==== Proof.RefLoss.lean ====
/-
  The reference computes the loss: its result, read one operation at a time, is `LossSpec.loss` of its arguments.
-/
import proofs.«116210_j44487271252809_2_alg».proof.Proof.Gen.ReferenceIdeal.Read
import proofs.«116210_j44487271252809_2_alg».proof.Proof.LossSpec

noncomputable section

open Idealize.ShloMosaic Idealize.ShloMosaic.ValueIdx

namespace Cert.ReferenceIdeal.RefLoss

open Cert.ReferenceIdeal Cert.ReferenceIdeal.Gen Cert.ReferenceIdeal.Read

/-- Row `r` of the reference's error vector is the row error, in the clamped spelling: jnp's two `relu`s are the
    two clamps, its `where` the choice between them, and its row sum starts from a zero that adds nothing. -/
theorem err_apply (x0 x1 : (⟨S1000000x128, .f32⟩ : BufTy).Contents (Elt Ideal)) (x2 : (⟨S1000000, .f32⟩ : BufTy).Contents (Elt Ideal))
    (r : Fin 1000000) :
    val_main_v13 (F := Ideal) x0 x1 x2 (ix1 r) = LossSpec.rowErr x1 x0 x2 r := by
  have hidx : ∀ k : Fin 128, idx_main_v2 (ix1 r) k = ix2 r k := fun k =>
    funext fun a => Fin.ext (by match a with | ⟨0, _⟩ => rfl | ⟨1, _⟩ => rfl)
  rw [LossSpec.rowErr_eq_clamped]
  unfold ErrTerm.hingeClamped LossSpec.isAntonym LossSpec.sumSq
  rw [val_main_v13_apply, val_main_v6_apply, val_main_v9_apply, val_main_v12_apply, val_main_v8_apply, val_main_v11_apply,
    val_main_v4_apply, val_main_v3_apply, val_main_v2_apply, val_main_v5_apply, val_main_v7_apply, val_main_v10_apply,
    val_main_call0_v0_apply, val_main_call1_v0_apply, val_main_cst_apply, val_main_cst_0_apply, val_main_cst_1_apply,
    val_main_cst_2_apply, val_main_call0_cst_apply, val_main_call1_cst_apply]
  simp only [val_main_v1_apply, val_main_v0_apply, hidx]
  rw [show FloatOps.ofBits (F := Ideal) .f32 0x00000000#32 = Ideal.ofBits .f32 0x00000000#32 from rfl,
    Ideal.ofBits_zero_f32, zero_add]
  rfl

/-- The reference's result is the loss of its arguments (the second argument minus the first, as jnp subtracts them). -/
theorem result_eq (x0 x1 : (⟨S1000000x128, .f32⟩ : BufTy).Contents (Elt Ideal)) (x2 : (⟨S1000000, .f32⟩ : BufTy).Contents (Elt Ideal)) :
    val_main_v15 (F := Ideal) x0 x1 x2 = fun _ => LossSpec.loss x1 x0 x2 := by
  funext i
  rw [val_main_v15_apply, val_main_v14_apply, val_main_cst_3_apply, val_main_cst_4_apply]
  unfold LossSpec.loss
  rw [LossSpec.sum_idx1 (n := 1000000)]
  simp only [err_apply]
  rfl

end Cert.ReferenceIdeal.RefLoss

end
-- ==== Proof.lean ====
/-
  A pairwise antonymy loss over a batch of 1000000 rows of 128-wide embeddings:

      loss = (1 / 1000000) · Σ_r hinge ( [score_r ≥ 0.8],  tanh ‖A1_r − S2_r‖₂ ),

  where the hinge is  relu (1 − t)  on the bit and  relu (1 + t)  off it.

  The reference computes it in one pass: the row distances by a sum of squares, a square root and a tanh, both clamped
  branches, a select, one sum over the batch and one division.

  The kernel sweeps the batch in 200 blocks of 5000 rows, two sweeps of 100 blocks. In a block it takes the row sums of
  squares as a product with a column of ones, drops both clamps (the squashed distance of a sum of squares always lies
  in [0, 1], so neither bites) and folds the branch into a sign, 1 + (1 − 2·[bit]) · t; it masks rows past the batch
  size (there are none: 200 · 5000 = 1000000), sums the block's column and adds it to a one-element running total that
  survives from step to step; the last step of a sweep writes the total to row 0 of an eight-row block of a [16, 1]
  column, zeros below. The host then sums the column and divides by 1000000.

  On the extended reals the two are one number: the hinge's two spellings agree on [0, 1] (Proof/ErrTerm.lean), and
  everything else is re-association of one finite sum (Proof/SumLaws.lean). No finiteness of the inputs is used: a
  square is never negative on the extended reals, sqrt and tanh are monotone there with tanh ⊤ = 1.

  The modules: ErrTerm (the hinge), LossSpec (the loss as one function of the arguments), SumLaws (finite sums),
  RefLoss (the reference is the loss), CasePieces (what each kind of step leaves behind), RowSum (a block's column sum),
  RunningTotal (the total across steps), BlockReads (which rows a block holds), OutputArray (the [16, 1] column),
  KernelLoss (the kernel is the loss); LibWordArith and LibKeepdimsColumn are general lemmas.
-/
import proofs.«116210_j44487271252809_2_alg».proof.Defs
import proofs.«116210_j44487271252809_2_alg».proof.Proof.Gen.Kernel
import proofs.«116210_j44487271252809_2_alg».proof.Proof.Gen.Kernel.Skeleton
import proofs.«116210_j44487271252809_2_alg».proof.Proof.Gen.Kernel.Launch
import proofs.«116210_j44487271252809_2_alg».proof.Proof.Gen.Kernel.Points
import proofs.«116210_j44487271252809_2_alg».proof.Proof.Gen.Kernel.Frame
import proofs.«116210_j44487271252809_2_alg».proof.Proof.Gen.KernelIdeal
import proofs.«116210_j44487271252809_2_alg».proof.Proof.Gen.KernelIdeal.Skeleton
import proofs.«116210_j44487271252809_2_alg».proof.Proof.Gen.KernelIdeal.Launch
import proofs.«116210_j44487271252809_2_alg».proof.Proof.Gen.KernelIdeal.Points
import proofs.«116210_j44487271252809_2_alg».proof.Proof.Gen.KernelIdeal.Frame
import proofs.«116210_j44487271252809_2_alg».proof.Proof.Gen.ReferenceIdeal
import proofs.«116210_j44487271252809_2_alg».proof.Proof.Gen.Pre_finite_inputs
import proofs.«116210_j44487271252809_2_alg».proof.Proof.Gen.ReferenceIdeal.Run
import proofs.«116210_j44487271252809_2_alg».proof.Proof.Gen.ReferenceIdeal.Read
import proofs.«116210_j44487271252809_2_alg».proof.Proof.KernelLoss
import proofs.«116210_j44487271252809_2_alg».proof.Proof.RefLoss
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the loss of those arguments. -/
theorem algebraic : Cert.algebraic_KernelIdeal_ReferenceIdeal := by
  intro m ρ m' ρ' _ hagree
  refine ⟨fun c _ => Cert.LossSpec.loss (m ((c.tc : Thread Cert.KernelIdeal.nD Cert.KernelIdeal.τ).loc Cert.KernelIdeal.main_arg1))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2)),
    Cert.KernelIdeal.KLoss.run m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v15_eq, Cert.ReferenceIdeal.RefLoss.result_eq,
    (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
